-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S1600000 : Shape := ⟨1, ![1600000]⟩
abbrev S128x256 : Shape := ⟨2, ![128, 256]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S1600000 : S_.BroadcastsInDim S1600000 (![] : Fin 0 → Fin S1600000.rank)
  reducesTo_S1600000_S_d0 : S1600000.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : FVec F S50000x128 .f32) (main_arg2 : IVec S1600000 32) (main_arg3 : IVec S1600000 32) (main_arg4 : FVec F S1600000 .f32) (main_arg5 : FVec F S128x256 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S1600000 .f32 := Host.absf main_arg4
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  let main_v14 : FVec F S128x256 .f32 := Host.absf main_arg5
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg6 main_v13 main_v16
-- ==== Kernel.lean ====
abbrev S100000x128 : Shape := ⟨2, ![100000, 128]⟩
abbrev S50000x128 : Shape := ⟨2, ![50000, 128]⟩
abbrev S1600000 : Shape := ⟨1, ![1600000]⟩
abbrev S128x256 : Shape := ⟨2, ![128, 256]⟩
abbrev S128 : Shape := ⟨1, ![128]⟩
abbrev S1600000x1 : Shape := ⟨2, ![1600000, 1]⟩
abbrev S_ : Shape := ⟨0, ![]⟩
abbrev S1600000x128 : Shape := ⟨2, ![1600000, 128]⟩
abbrev S256x128 : Shape := ⟨2, ![256, 128]⟩
abbrev S1x128 : Shape := ⟨2, ![1, 128]⟩
abbrev S5000x128 : Shape := ⟨2, ![5000, 128]⟩
abbrev S5000x256 : Shape := ⟨2, ![5000, 256]⟩

abbrev nBuf : Space → Nat
  | .hbm => 43
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S1600000, .i32⟩
  | .hbm, ⟨3, _⟩ => ⟨S1600000, .i32⟩
  | .hbm, ⟨4, _⟩ => ⟨S1600000, .f32⟩
  | .hbm, ⟨5, _⟩ => ⟨S128x256, .f32⟩
  | .hbm, ⟨6, _⟩ => ⟨S128, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S256x128, .f32⟩
  | .hbm, ⟨24, _⟩ => ⟨S256x128, .bf16⟩
  | .hbm, ⟨25, _⟩ => ⟨S1x128, .f32⟩
  | .hbm, ⟨26, _⟩ => ⟨S100000x128, .f32⟩
  | .hbm, ⟨27, _⟩ => ⟨S1600000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S1600000x128, .f32⟩
  | .hbm, ⟨38, _⟩ => ⟨S1600000x128, .f32⟩
  | .hbm, ⟨39, _⟩ => ⟨S_, .f32⟩
  | .hbm, ⟨40, _⟩ => ⟨S50000x128, .f32⟩
  | .hbm, ⟨41, _⟩ => ⟨S1600000x1, .i32⟩
  | .hbm, ⟨42, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S256x128, .bf16⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_1 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  transposes_S128x256_S256x128_1_0 : S128x256.Transposes [1, 0] S256x128
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  concatenates_S5000x128_S5000x128_S5000x256_d1 : Shape.Concatenates [S5000x128, S5000x128] S5000x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S50000x128 : S_.BroadcastsInDim S50000x128 (![] : Fin 0 → Fin S50000x128.rank)
  gather_S50000x128_S1600000x1_S1600000x128_1_0_n_n_0_1_1128_wf : GatherDims.WF S50000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S50000x128_S1600000x1_S1600000x128_1_0_0_1_wf : ScatterDims.WF S50000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .bf16 = 32 ∨ (Rect.block (s := S256x128) S256x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf

abbrev win0_0 : Pipeline.Window sig grid0 :=
  Pipeline.Window.ofSpec (Memref.whole main_v12) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S1600000 : Shape := ⟨1, ![1600000]⟩
abbrev S128x256 : Shape := ⟨2, ![128, 256]⟩
abbrev S128 : Shape := ⟨1, ![128]⟩
abbrev S1600000x1 : Shape := ⟨2, ![1600000, 1]⟩
abbrev S_ : Shape := ⟨0, ![]⟩
abbrev S1600000x128 : Shape := ⟨2, ![1600000, 128]⟩
abbrev S100000x256 : Shape := ⟨2, ![100000, 256]⟩
abbrev S256x128 : Shape := ⟨2, ![256, 128]⟩
abbrev S1x128 : Shape := ⟨2, ![1, 128]⟩

abbrev nBuf : Space → Nat
  | .hbm => 46
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S1600000, .i32⟩
  | .hbm, ⟨3, _⟩ => ⟨S1600000, .i32⟩
  | .hbm, ⟨4, _⟩ => ⟨S1600000, .f32⟩
  | .hbm, ⟨5, _⟩ => ⟨S128x256, .f32⟩
  | .hbm, ⟨6, _⟩ => ⟨S128, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S100000x128, .f32⟩
  | .hbm, ⟨24, _⟩ => ⟨S100000x256, .f32⟩
  | .hbm, ⟨25, _⟩ => ⟨S256x128, .f32⟩
  | .hbm, ⟨26, _⟩ => ⟨S100000x128, .f32⟩
  | .hbm, ⟨27, _⟩ => ⟨S1x128, .f32⟩
  | .hbm, ⟨28, _⟩ => ⟨S100000x128, .f32⟩
  | .hbm, ⟨29, _⟩ => ⟨S100000x128, .f32⟩
  | .hbm, ⟨30, _⟩ => ⟨S1600000x1, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S1600000x128, .f32⟩
  | .hbm, ⟨41, _⟩ => ⟨S1600000x128, .f32⟩
  | .hbm, ⟨42, _⟩ => ⟨S_, .f32⟩
  | .hbm, ⟨43, _⟩ => ⟨S50000x128, .f32⟩
  | .hbm, ⟨44, _⟩ => ⟨S1600000x1, .i32⟩
  | .hbm, ⟨45, _⟩ => ⟨S50000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_1 : Ref sig .tc := ⟨.hbm, 31, rfl⟩
abbrev main_v21 : Ref sig .tc := ⟨.hbm, 32, rfl⟩
abbrev main_v22 : Ref sig .tc := ⟨.hbm, 33, rfl⟩
abbrev main_c_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  concatenates_S100000x128_S100000x128_S100000x256_d1 : Shape.Concatenates [S100000x128, S100000x128] S100000x256 1
  transposes_S128x256_S256x128_1_0 : S128x256.Transposes [1, 0] S256x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S50000x128 : S_.BroadcastsInDim S50000x128 (![] : Fin 0 → Fin S50000x128.rank)
  gather_S50000x128_S1600000x1_S1600000x128_1_0_n_n_0_1_1128_wf : GatherDims.WF S50000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S50000x128_S1600000x1_S1600000x128_1_0_0_1_wf : ScatterDims.WF S50000x128 S1600000x1 S1600000x128 [1] [0] [0] 1

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf

class Facts : Prop extends Facts₀ where

variable [Facts]
-- ==== Proof.GatedLinear.lean ====
/-
  The dense stage of one hypergraph message-passing layer, as a function on the extended reals.

  For an n-by-128 array x of node messages and an n-by-128 array u of user embeddings the stage joins, row by
  row, x with the gate x ⊙ u into an n-by-256 array and applies a linear map with a 128-by-256 weight W and a
  bias b of 128 entries:
      out r q = (∑ k < 256, [x | x ⊙ u] r k · W q k) + b q.
  `joined` is one entry of the joined array and `gatedLinear` the whole stage; `concatenate_joined` reads a
  two-piece concatenation along the columns at an entry, and `joined_congr` says that an entry of row r depends
  on row r of x and of u only (so the stage of a block of rows is that block of the stage of the whole arrays).
  Only commutativity and associativity of sums on the extended reals are behind the comparison of the two programs,
  so no finiteness is used anywhere.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.GatedLinear

open Idealize.ShloMosaic Idealize.ShloMosaic.ValueIdx

/-- Entry (r, k) of the row-wise join [x | x ⊙ u] of two n-by-128 arrays: a column k below 128 is x's column k, a
    column 128 + k' is the product of x's and u's column k'. -/
def joined {n : Nat} (x u : (⟨2, ![n, 128]⟩ : Shape).Idx → EReal) (r : Fin n) (k : Fin 256) : EReal :=
  if h : k.val < 128 then x (ix2 r ⟨k.val, h⟩)
  else x (ix2 r ⟨k.val - 128, by have := k.isLt; omega⟩) * u (ix2 r ⟨k.val - 128, by have := k.isLt; omega⟩)

/-- An entry of row r of the join reads row r of the two arrays only. -/
theorem joined_congr {n n' : Nat} (x u : (⟨2, ![n, 128]⟩ : Shape).Idx → EReal) (x' u' : (⟨2, ![n', 128]⟩ : Shape).Idx → EReal)
    (r : Fin n) (r' : Fin n') (hx : ∀ j : Fin 128, x' (ix2 r' j) = x (ix2 r j)) (hu : ∀ j : Fin 128, u' (ix2 r' j) = u (ix2 r j))
    (k : Fin 256) : joined x' u' r' k = joined x u r k := by
  unfold joined
  split
  · exact hx _
  · rw [hx, hu]

/-- The concatenation along the columns of x and of an array y that is x ⊙ u entry by entry, read at (r, k), is
    the join's entry. -/
theorem concatenate_joined {n : Nat} (x u y : (⟨2, ![n, 128]⟩ : Shape).Idx → EReal) (hy : ∀ i, y i = x i * u i)
    (h : Shape.Concatenates [(⟨2, ![n, 128]⟩ : Shape), ⟨2, ![n, 128]⟩] ⟨2, ![n, 256]⟩ 1) (r : Fin n) (k : Fin 256) :
    concatenate (⟨2, ![n, 256]⟩ : Shape) 1 [⟨⟨2, ![n, 128]⟩, x⟩, ⟨⟨2, ![n, 128]⟩, y⟩] h (ix2 r k) = joined x u r k := by
  unfold joined
  split
  · rename_i hk
    exact concatenate_pair_apply_left 1 x y h (ix2 r k) rfl (ix2 r ⟨k.val, hk⟩) (fun b => by
      match b with
      | ⟨0, _⟩ => rfl
      | ⟨1, _⟩ => rfl)
  · rename_i hk
    have hk' : k.val - 128 < 128 := by have := k.isLt; omega
    refine (concatenate_pair_apply_right 1 x y h (ix2 r k) rfl rfl (ix2 r ⟨k.val - 128, hk'⟩) (fun b hb => by
      match b with
      | ⟨0, _⟩ => rfl
      | ⟨1, _⟩ => exact absurd rfl hb) (by show (k.val - 128) + 128 = k.val; omega)).trans ?_
    exact hy _

/-- The stage: entry (r, q) is the join's row r against row q of the weight, plus the bias at q. -/
def gatedLinear {n : Nat} (x u : (⟨2, ![n, 128]⟩ : Shape).Idx → EReal) (W : (⟨2, ![128, 256]⟩ : Shape).Idx → EReal)
    (b : (⟨1, ![128]⟩ : Shape).Idx → EReal) : (⟨2, ![n, 128]⟩ : Shape).Idx → EReal :=
  fun i => (∑ k : Fin 256, joined x u (i 0) k * W (ix2 (i 1) k)) + b (ix1 (i 1))

theorem gatedLinear_apply {n : Nat} (x u : (⟨2, ![n, 128]⟩ : Shape).Idx → EReal) (W : (⟨2, ![128, 256]⟩ : Shape).Idx → EReal)
    (b : (⟨1, ![128]⟩ : Shape).Idx → EReal) (r : Fin n) (q : Fin 128) :
    gatedLinear x u W b (ix2 r q) = (∑ k : Fin 256, joined x u r k * W (ix2 q k)) + b (ix1 q) := rfl

end Cert.GatedLinear

end
-- ==== Proof.BlockValue.lean ====
/-
  What the kernel body stores at one grid point, read at an entry.

  The body loads a 5000-row block x of the node messages, the same rows u of the user embeddings, the whole
  256-by-128 matrix w (the transposed weight, rounded to bf16, which is the identity on the extended reals) and the
  bias as one row b, and stores  [x | x ⊙ u] · w + b.  At entry (p, q) of the block that is the sum over the 256
  columns k of the join's entry (p, k) times w (k, q), plus b (0, q): the matrix product into a zero accumulator is
  the plain sum over its one contracted axis, the change of format and the casts to the same shape are identities,
  and the row broadcast reads the bias row.
-/
import proofs.«147373_j19146964205949_2_alg».proof.Proof.Gen.KernelIdeal.Skeleton
import proofs.«147373_j19146964205949_2_alg».proof.Proof.GatedLinear

noncomputable section

open scoped BigOperators

namespace Cert.KernelIdeal.BlockValue

open Idealize.ShloMosaic Idealize.ShloMosaic.ValueIdx Cert.KernelIdeal Cert.KernelIdeal.Gen Cert.GatedLinear

/-! The operand indices of the body's matrix product at an output entry and a contraction index: the left operand
    is read at (row of the entry, contracted coordinate), the right at (contracted coordinate, column of the entry). -/

theorem lhs_row (i : S5000x128.Idx) (c : dot_S5000x256_S256x128_S5000x128_1_0_0_1_n_n.contr.Idx) :
    (dot_S5000x256_S256x128_S5000x128_1_0_0_1_n_n.lhsIdx i c 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs_col (i : S5000x128.Idx) (c : dot_S5000x256_S256x128_S5000x128_1_0_0_1_n_n.contr.Idx) :
    (dot_S5000x256_S256x128_S5000x128_1_0_0_1_n_n.lhsIdx i c 1).val = (c ⟨0, by decide⟩).val :=
  dot_S5000x256_S256x128_S5000x128_1_0_0_1_n_n.lhsIdx_val_of_single rfl i c
theorem rhs_row (i : S5000x128.Idx) (c : dot_S5000x256_S256x128_S5000x128_1_0_0_1_n_n.contr.Idx) :
    (dot_S5000x256_S256x128_S5000x128_1_0_0_1_n_n.rhsIdx i c 0).val = (c ⟨0, by decide⟩).val :=
  dot_S5000x256_S256x128_S5000x128_1_0_0_1_n_n.rhsIdx_val_of_single rfl i c
theorem rhs_col (i : S5000x128.Idx) (c : dot_S5000x256_S256x128_S5000x128_1_0_0_1_n_n.contr.Idx) :
    (dot_S5000x256_S256x128_S5000x128_1_0_0_1_n_n.rhsIdx i c 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The stored block at entry (p, q): the join's row p against column q of the matrix, plus the bias row at q. -/
theorem pay_apply (v0 v2 : Vec Ideal S5000x128 .f32) (v6 : Vec Ideal S256x128 .bf16) (v9 : Vec Ideal S1x128 .f32)
    (p : Fin 5000) (q : Fin 128) :
    k0_pay1 (F := Ideal) v0 v2 v6 v9 (ix2 p q)
      = (∑ k : Fin 256, joined v0 v2 p k * v6 (ix2 k q)) + v9 (ix2 (0 : Fin 1) q) := by
  unfold k0_pay1
  simp only [shapeCast_self]
  have e0 : shapeCast S5000x128 v0 shapeCasts_S5000x128_S5000x128 = v0 := shapeCast_self _ _
  rw [e0]
  refine congrArg₂ (· + ·) ?_ ?_
  · refine (Ideal.matmul_constant_zero_apply (φ₁ := .bf16) (φ₂ := .bf16) dot_S5000x256_S256x128_S5000x128_1_0_0_1_n_n none _ v6 (ix2 p q)).trans ?_
    rw [← Equiv.sum_comp (contrEquiv1 dot_S5000x256_S256x128_S5000x128_1_0_0_1_n_n 256 rfl rfl).symm]
    refine Finset.sum_congr rfl fun k _ => ?_
    have hk := contrEquiv1_symm_val dot_S5000x256_S256x128_S5000x128_1_0_0_1_n_n 256 rfl rfl k
    have el : dot_S5000x256_S256x128_S5000x128_1_0_0_1_n_n.lhsIdx (ix2 p q) ((contrEquiv1 dot_S5000x256_S256x128_S5000x128_1_0_0_1_n_n 256 rfl rfl).symm k) = ix2 p k := funext fun a => Fin.ext (by
      match a with
      | ⟨0, _⟩ => exact lhs_row _ _
      | ⟨1, _⟩ => exact (lhs_col _ _).trans hk)
    have er : dot_S5000x256_S256x128_S5000x128_1_0_0_1_n_n.rhsIdx (ix2 p q) ((contrEquiv1 dot_S5000x256_S256x128_S5000x128_1_0_0_1_n_n 256 rfl rfl).symm k) = ix2 k q := funext fun a => Fin.ext (by
      match a with
      | ⟨0, _⟩ => exact (rhs_row _ _).trans hk
      | ⟨1, _⟩ => exact rhs_col _ _)
    rw [el, er]
    have ej : concatenate S5000x256 1 [⟨S5000x128, v0⟩, ⟨S5000x128, (mulf v0 v2 : FVec Ideal S5000x128 .f32)⟩]
        concatenates_S5000x128_S5000x128_S5000x256_d1 (ix2 p k) = joined v0 v2 p k :=
      concatenate_joined (n := 5000) v0 v2 (mulf v0 v2 : FVec Ideal S5000x128 .f32) (fun _ => rfl) concatenates_S5000x128_S5000x128_S5000x256_d1 p k
    exact congrArg (· * v6 (ix2 k q)) ej
  · exact broadcastTo_apply v9 broadcasts_S1x128_S5000x128 (ix2 p q) (ix2 (0 : Fin 1) q) (fun a => by
      match a with
      | ⟨0, _⟩ => show 0 = if (1 : Nat) = 1 then 0 else p.val; rw [if_pos rfl]
      | ⟨1, _⟩ => show q.val = if (128 : Nat) = 1 then 0 else q.val; rw [if_neg (by decide)])

/-- The stored block is the stage of the whole arrays on the block's rows: when the loaded blocks x0 and x1 hold, at
    the row of entry y, what the arrays X and U hold at the row of entry i, the loaded matrix x2 is the weight W
    transposed and the loaded row x3 is the bias b, entry y of the stored block is entry i of the stage, for i in
    y's column. -/
theorem pay_eq_gatedLinear (x0 x1 : Vec Ideal S5000x128 .f32) (x2 : Vec Ideal S256x128 .bf16) (x3 : Vec Ideal S1x128 .f32)
    (X U : S100000x128.Idx → EReal) (W : S128x256.Idx → EReal) (b : S128.Idx → EReal)
    (y : S5000x128.Idx) (i : S100000x128.Idx)
    (h0 : ∀ j : Fin 128, x0 (ix2 (y 0) j) = X (ix2 (i 0) j)) (h1 : ∀ j : Fin 128, x1 (ix2 (y 0) j) = U (ix2 (i 0) j))
    (h2 : ∀ (k : Fin 256) (q : Fin 128), x2 (ix2 k q) = W (ix2 q k)) (h3 : ∀ q : Fin 128, x3 (ix2 (0 : Fin 1) q) = b (ix1 q))
    (hi : (i 1).val = (y 1).val) :
    k0_pay1 (F := Ideal) x0 x1 x2 x3 y = gatedLinear X U W b i := by
  obtain ⟨p, q, rfl⟩ : ∃ (p : Fin 5000) (q : Fin 128), y = ix2 p q := ⟨y 0, y 1, eq_ix2 y⟩
  obtain ⟨r, q', rfl⟩ : ∃ (r : Fin 100000) (q' : Fin 128), i = ix2 r q' := ⟨i 0, i 1, eq_ix2 i⟩
  obtain rfl : q' = q := Fin.ext hi
  rw [pay_apply, gatedLinear_apply]
  refine congrArg₂ (· + ·) (Finset.sum_congr rfl fun k _ => ?_) (h3 q')
  rw [h2, joined_congr X U x0 x1 r p h0 h1 k]

end Cert.KernelIdeal.BlockValue

end
-- ==== Proof.HostSides.lean ====
/-
  The host operations of the kernel's program, before and after its one region, as functions of the arguments.

  Before the region the program computes the node messages  H · item_emb  (`nodeMsg`: the rows of item_emb gathered
  at the edges' columns, scaled by the edges' values and summed into the edges' rows), the weight transposed (then
  rounded to bf16, which is the identity on the extended reals) and the bias as one row.  After the region it sends
  the region's result back along the edges,  Hᵀ · msg  (`edgeSumBack`: the rows of msg gathered at the edges' rows,
  scaled by the edges' values and summed into the edges' columns).  Neither the gather nor the scatter-add is ever
  opened: both programs apply the same operations to the same arrays, so they are carried as whole functions.
-/
import proofs.«147373_j19146964205949_2_alg».proof.Proof.Gen.KernelIdeal.Frame
import Idealize.ShloMosaic.Lib.StableHlo.Run

noncomputable section

namespace Cert.KernelIdeal.HostSides

open Idealize.ShloMosaic Idealize.ShloMosaic.TcCoe Idealize.SL.Sem Idealize.ShloMosaic.StableHlo
open Cert.KernelIdeal Cert.KernelIdeal.Gen

variable {F : FTy → Type} [FloatOps F]

/-- The node messages: row r is the sum, over the edges e whose row index is r, of the edge's value times the row of
    item_emb at the edge's column index (a negative index counted from the end, as jnp reads it). -/
def nodeMsg (x1 : (⟨S50000x128, .f32⟩ : BufTy).Contents (Elt F)) (x2 x3 : (⟨S1600000, .i32⟩ : BufTy).Contents (Elt F))
    (x4 : (⟨S1600000, .f32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 x2)
    (mulf (broadcastInDim S1600000x128 ![0, 1] bcast_S1600000x1_S1600000x128_0_1 (broadcastInDim S1600000x1 ![0] bcast_S1600000_S1600000x1_0 x4))
      (Host.gather gather_S50000x128_S1600000x1_S1600000x128_1_0_n_n_0_1_1128 x1
        (broadcastInDim S1600000x1 ![0] bcast_S1600000_S1600000x1_0
          (select (cmpi .slt x3 (broadcastInDim S1600000 ![] bcast_S_S1600000 (constantI S_ 32 0#32)))
            (addi x3 (broadcastInDim S1600000 ![] bcast_S_S1600000 (constantI S_ 32 50000#32))) x3))))

/-- The messages sent back: row s is the sum, over the edges e whose column index is s, of the edge's value times the
    row of msg at the edge's row index. -/
def edgeSumBack (msg : (⟨S100000x128, .f32⟩ : BufTy).Contents (Elt F)) (x2 x3 : (⟨S1600000, .i32⟩ : BufTy).Contents (Elt F))
    (x4 : (⟨S1600000, .f32⟩ : BufTy).Contents (Elt F)) : (⟨S50000x128, .f32⟩ : BufTy).Contents (Elt F) :=
  Host.scatterAdd scatter_S50000x128_S1600000x1_S1600000x128_1_0_0_1
    (broadcastInDim S50000x128 ![] bcast_S_S50000x128 (constant S_ .f32 0x00000000#32))
    (broadcastInDim S1600000x1 ![0] bcast_S1600000_S1600000x1_0 x3)
    (mulf (broadcastInDim S1600000x128 ![0, 1] bcast_S1600000x1_S1600000x128_0_1 (broadcastInDim S1600000x1 ![0] bcast_S1600000_S1600000x1_0 x4))
      (Host.gather gather_S100000x128_S1600000x1_S1600000x128_1_0_n_n_0_1_1128 msg
        (broadcastInDim S1600000x1 ![0] bcast_S1600000_S1600000x1_0
          (select (cmpi .slt x2 (broadcastInDim S1600000 ![] bcast_S_S1600000 (constantI S_ 32 0#32)))
            (addi x2 (broadcastInDim S1600000 ![] bcast_S_S1600000 (constantI S_ 32 100000#32))) x2))))

variable (m : (ℓ : Loc nD τ sig) → Buf (Elt F) ℓ)

/-- The region finds the node messages of the arguments in its first window's array. -/
theorem V_nodeMsg (c : Dev nD) :
    V m c main_v12 = nodeMsg (m ((c.tc : Thread nD τ).loc main_arg1)) (m ((c.tc : Thread nD τ).loc main_arg2))
      (m ((c.tc : Thread nD τ).loc main_arg3)) (m ((c.tc : Thread nD τ).loc main_arg4)) := by
  show StableHlo.after hostOps0 (fun b => m (c, b)) (Proc.devRef .tc main_v12) = _
  unfold nodeMsg
  after_results_simp <;> rfl

/-- The region finds the weight transposed (and changed to bf16) in its third window's array. -/
theorem V_weight (c : Dev nD) :
    V m c main_v14 = truncf .bf16 (transpose S256x128 [1, 0] (m ((c.tc : Thread nD τ).loc main_arg5)) transposes_S128x256_S256x128_1_0) bitsLt_bf16_f32 := by
  show StableHlo.after hostOps0 (fun b => m (c, b)) (Proc.devRef .tc main_v14) = _
  after_results_simp <;> rfl

/-- The region finds the bias, as one row, in its fourth window's array. -/
theorem V_bias (c : Dev nD) :
    V m c main_v15 = shapeCast S1x128 (m ((c.tc : Thread nD τ).loc main_arg6)) shapeCasts_S128_S1x128 := by
  show StableHlo.after hostOps0 (fun b => m (c, b)) (Proc.devRef .tc main_v15) = _
  after_results_simp <;> rfl

/-- After the region the program's first result is the region's result sent back along the edges. -/
theorem tail_eq (c : Dev nD) :
    Pipeline.afterTail₀ cfgs (dats m) 0 (V0 m) [hostOps1] c main_v29
      = edgeSumBack ((dats m 0 c).arrAt 4 cfg0.N) (m ((c.tc : Thread nD τ).loc main_arg2))
          (m ((c.tc : Thread nD τ).loc main_arg3)) (m ((c.tc : Thread nD τ).loc main_arg4)) := by
  unfold Pipeline.afterTail₀
  show StableHlo.after hostOps1 _ (Proc.devRef .tc main_v29) = _
  after_results_simp
  have e2 := (Pipeline.withArrays_of_ne (cfgs 0).spec c (V0 m c) (fun w => (dats m 0 c).arrAt w (cfgs 0).N) main_arg2
    (by exact (by decide : ∀ w, Pipeline.arrRef spec0 w ≠ main_arg2))).trans (V_main_arg2 m c)
  have e3 := (Pipeline.withArrays_of_ne (cfgs 0).spec c (V0 m c) (fun w => (dats m 0 c).arrAt w (cfgs 0).N) main_arg3
    (by exact (by decide : ∀ w, Pipeline.arrRef spec0 w ≠ main_arg3))).trans (V_main_arg3 m c)
  have e4 := (Pipeline.withArrays_of_ne (cfgs 0).spec c (V0 m c) (fun w => (dats m 0 c).arrAt w (cfgs 0).N) main_arg4
    (by exact (by decide : ∀ w, Pipeline.arrRef spec0 w ≠ main_arg4))).trans (V_main_arg4 m c)
  have e16 : Pipeline.withArrays (cfgs 0).spec c (V0 m c) (fun w => (dats m 0 c).arrAt w (cfgs 0).N) (Proc.devRef .tc main_v16)
      = (dats m 0 c).arrAt 4 (cfgs 0).N :=
    Pipeline.withArrays_arr (cfgs 0).spec launch0.win.arr_inj c (V0 m c) (fun w => (dats m 0 c).arrAt w (cfgs 0).N) 4
  rw [e2, e3, e4, e16]
  rfl

end Cert.KernelIdeal.HostSides

end
-- ==== Proof.RegionBlocks.lean ====
/-
  The blocks the kernel body loads at a grid point, as entries of the arrays the region finds.

  The grid has 20 points.  At point t the first two windows are at block row t of their 100000-by-128 arrays, so
  entry (p, q) of the loaded block is entry (5000 t + p, q) of the array; the weight's and the bias's windows have one
  block, the whole array, at every point.  The body's one store covers the output's staging buffer.
-/
import proofs.«147373_j19146964205949_2_alg».proof.Proof.Gen.KernelIdeal.Frame
import Idealize.ShloMosaic.Lib.Pipeline.Value
import Idealize.ShloMosaic.Lib.ValueIdx
import Idealize.ShloMosaic.Lib.Tactic

noncomputable section

namespace Cert.KernelIdeal.RegionBlocks

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

theorem hz : (![0, 0] : Fin 2 → Nat) = fun _ => 0 := funext fun a => by fin_cases a <;> rfl

/-- The body's one store covers the output's staging buffer, which therefore holds the stored block. -/
theorem out_eq (x0 x1 : Vec Ideal S5000x128 .f32) (x2 : Vec Ideal S256x128 .bf16) (x3 : Vec Ideal S1x128 .f32) :
    out0_4 x0 x1 x2 x3 = k0_pay1 x0 x1 x2 x3 := by
  unfold out0_4
  rw [View.canon_unit_zero hz]
  simp only [View.ld_unit_zero (S := S5000x128) hz, View.ld_unit_zero (S := S256x128) hz, View.ld_unit_zero (S := S1x128) hz]

/-- The index maps over the 20 grid points: the node messages, the user embeddings and the result move to block
    row t at point t; the weight and the bias stay at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! The blocks the body loads, as rows of the arrays the region finds.  Each is first read off an arbitrary
    family `f` of buffer contents (so that nothing about how the arrays were computed is looked at), then taken at the
    contents the region finds. -/

theorem nodeRows (c : Dev nD) (f : (b : Ref sig .tc) → Buf (Elt Ideal) ((c : Thread nD τ).loc b))
    (t : Fin cfg0.N) (x : S5000x128.Idx) (k : S100000x128.Idx)
    (hk0 : (k 0).val = 5000 * t.val + (x 0).val) (hk1 : (k 1).val = (x 1).val) :
    (((cfg0.win 0).blk t).view.read (Elt Ideal) (f (Pipeline.arrRef spec0 0)) : Vec Ideal S5000x128 .f32) x
      = (f main_v12 : S100000x128.Idx → Elt Ideal .f32) k := by
  obtain ⟨e0, e1, -⟩ := idx_facts t
  rw [View.read_apply]
  refine congrArg (f main_v12 : S100000x128.Idx → Elt Ideal .f32) (funext fun a => Fin.ext ?_)
  match a with
  | ⟨0, _⟩ => show win0_0.index t (0 : Fin 2) * 5000 + 1 * (x 0).val = (k 0).val; rw [e0, hk0]; omega
  | ⟨1, _⟩ => show win0_0.index t (1 : Fin 2) * 128 + 1 * (x 1).val = (k 1).val; rw [e1, hk1]; omega

/-- The block of node messages at point t is rows 5000 t … 5000 t + 4999 of the array the region finds. -/
theorem nodeBlock_apply (c : Dev nD) (t : Fin cfg0.N) (x : S5000x128.Idx) (k : S100000x128.Idx)
    (hk0 : (k 0).val = 5000 * t.val + (x 0).val) (hk1 : (k 1).val = (x 1).val) :
    (iblk m c 0 t : Vec Ideal S5000x128 .f32) x = (V m c main_v12 : S100000x128.Idx → Elt Ideal .f32) k := by
  unfold iblk
  exact nodeRows c (V m c) t x k hk0 hk1

theorem userRows (c : Dev nD) (f : (b : Ref sig .tc) → Buf (Elt Ideal) ((c : Thread nD τ).loc b))
    (t : Fin cfg0.N) (x : S5000x128.Idx) (k : S100000x128.Idx)
    (hk0 : (k 0).val = 5000 * t.val + (x 0).val) (hk1 : (k 1).val = (x 1).val) :
    (((cfg0.win 1).blk t).view.read (Elt Ideal) (f (Pipeline.arrRef spec0 1)) : Vec Ideal S5000x128 .f32) x
      = (f main_arg0 : S100000x128.Idx → Elt Ideal .f32) k := by
  obtain ⟨-, -, e0, e1, -⟩ := idx_facts t
  rw [View.read_apply]
  refine congrArg (f main_arg0 : S100000x128.Idx → Elt Ideal .f32) (funext fun a => Fin.ext ?_)
  match a with
  | ⟨0, _⟩ => show win0_1.index t (0 : Fin 2) * 5000 + 1 * (x 0).val = (k 0).val; rw [e0, hk0]; omega
  | ⟨1, _⟩ => show win0_1.index t (1 : Fin 2) * 128 + 1 * (x 1).val = (k 1).val; rw [e1, hk1]; omega

/-- The block of user embeddings at point t is the same rows of the first argument. -/
theorem userBlock_apply (c : Dev nD) (t : Fin cfg0.N) (x : S5000x128.Idx) (k : S100000x128.Idx)
    (hk0 : (k 0).val = 5000 * t.val + (x 0).val) (hk1 : (k 1).val = (x 1).val) :
    (iblk m c 1 t : Vec Ideal S5000x128 .f32) x = (V m c main_arg0 : S100000x128.Idx → Elt Ideal .f32) k := by
  unfold iblk
  exact userRows c (V m c) t x k hk0 hk1

theorem weightRows (c : Dev nD) (f : (b : Ref sig .tc) → Buf (Elt Ideal) ((c : Thread nD τ).loc b))
    (t : Fin cfg0.N) (x : S256x128.Idx) :
    (((cfg0.win 2).blk t).view.read (Elt Ideal) (f (Pipeline.arrRef spec0 2)) : Vec Ideal S256x128 .bf16) x
      = (f main_v14 : S256x128.Idx → Elt Ideal .bf16) x := by
  obtain ⟨-, -, -, -, e0, e1, -⟩ := idx_facts t
  rw [View.read_apply]
  refine congrArg (f main_v14 : S256x128.Idx → Elt Ideal .bf16) (funext fun a => Fin.ext ?_)
  match a with
  | ⟨0, _⟩ => show win0_2.index t (0 : Fin 2) * 256 + 1 * (x 0).val = (x 0).val; rw [e0]; omega
  | ⟨1, _⟩ => show win0_2.index t (1 : Fin 2) * 128 + 1 * (x 1).val = (x 1).val; rw [e1]; omega

/-- The weight's block at every point is the whole transposed weight. -/
theorem weightBlock_apply (c : Dev nD) (t : Fin cfg0.N) (x : S256x128.Idx) :
    (iblk m c 2 t : Vec Ideal S256x128 .bf16) x = (V m c main_v14 : S256x128.Idx → Elt Ideal .bf16) x := by
  unfold iblk
  exact weightRows c (V m c) t x

theorem biasRows (c : Dev nD) (f : (b : Ref sig .tc) → Buf (Elt Ideal) ((c : Thread nD τ).loc b))
    (t : Fin cfg0.N) (x : S1x128.Idx) :
    (((cfg0.win 3).blk t).view.read (Elt Ideal) (f (Pipeline.arrRef spec0 3)) : Vec Ideal S1x128 .f32) x
      = (f main_v15 : S1x128.Idx → Elt Ideal .f32) x := by
  obtain ⟨-, -, -, -, -, -, e0, e1, -⟩ := idx_facts t
  rw [View.read_apply]
  refine congrArg (f main_v15 : S1x128.Idx → Elt Ideal .f32) (funext fun a => Fin.ext ?_)
  match a with
  | ⟨0, _⟩ => show win0_3.index t (0 : Fin 2) * 1 + 1 * (x 0).val = (x 0).val; rw [e0]; omega
  | ⟨1, _⟩ => show win0_3.index t (1 : Fin 2) * 128 + 1 * (x 1).val = (x 1).val; rw [e1]; omega

/-- The bias's block at every point is the whole bias row. -/
theorem biasBlock_apply (c : Dev nD) (t : Fin cfg0.N) (x : S1x128.Idx) :
    (iblk m c 3 t : Vec Ideal S1x128 .f32) x = (V m c main_v15 : S1x128.Idx → Elt Ideal .f32) x := by
  unfold iblk
  exact biasRows c (V m c) t x

end Cert.KernelIdeal.RegionBlocks

end
-- ==== Proof.RegionReads.lean ====
/-
  The transposed weight and the bias row the region finds, read back at an entry of the arguments.
-/
import proofs.«147373_j19146964205949_2_alg».proof.Proof.HostSides
import Idealize.ShloMosaic.Lib.Pipeline.Value
import Idealize.ShloMosaic.Lib.ValueIdx

noncomputable section

namespace Cert.KernelIdeal.RegionReads

open Idealize.ShloMosaic Idealize.ShloMosaic.TcCoe Idealize.SL.Sem Idealize.ShloMosaic.ValueIdx
open Cert.KernelIdeal Cert.KernelIdeal.Gen Cert.KernelIdeal.HostSides

variable (m : (ℓ : Loc nD τ sig) → Buf (Elt Ideal) ℓ)

/-- The transposed weight the region finds, at (k, q), is the weight argument at (q, k). -/
theorem weight_apply (c : Dev nD) (k : Fin 256) (q : Fin 128) :
    (V m c main_v14 : S256x128.Idx → Elt Ideal .bf16) (ix2 k q)
      = (m ((c.tc : Thread nD τ).loc main_arg5) : S128x256.Idx → Elt Ideal .f32) (ix2 q k) := by
  rw [V_weight m c]
  exact transpose_apply [1, 0] (m ((c.tc : Thread nD τ).loc main_arg5) : S128x256.Idx → Elt Ideal .f32) transposes_S128x256_S256x128_1_0
    (ix2 k q) (ix2 q k) (fun b => match b with
      | ⟨0, _⟩ => rfl
      | ⟨1, _⟩ => rfl)

/-- The bias row the region finds, at (0, q), is the bias argument at q. -/
theorem bias_apply (c : Dev nD) (q : Fin 128) :
    (V m c main_v15 : S1x128.Idx → Elt Ideal .f32) (ix2 (0 : Fin 1) q)
      = (m ((c.tc : Thread nD τ).loc main_arg6) : S128.Idx → Elt Ideal .f32) (ix1 q) := by
  rw [V_bias m c]
  refine (shapeCast_addUnit_apply ![128] (m ((c.tc : Thread nD τ).loc main_arg6) : S128.Idx → Elt Ideal .f32) shapeCasts_S128_S1x128 (ix2 (0 : Fin 1) q)).trans ?_
  refine congrArg (m ((c.tc : Thread nD τ).loc main_arg6) : S128.Idx → Elt Ideal .f32) (funext fun a => ?_)
  match a with
  | ⟨0, _⟩ => rfl

end Cert.KernelIdeal.RegionReads

end
-- ==== Proof.RegionValue.lean ====
/-
  The array the region leaves: the dense stage of the whole arrays.

  The grid has 20 points; at point t the kernel body reads rows 5000 t … 5000 t + 4999 of the node messages and of
  the user embeddings, the whole transposed weight and the bias row, and writes the same rows of the result.  Each
  written block is the dense stage (`Cert.GatedLinear.gatedLinear`) of the whole arrays restricted to those rows,
  because an entry of the stage reads one row of the two arrays only; the 20 blocks tile the 100000 rows (row r is
  in block r / 5000), so after the last point the result array is the stage of the whole arrays.
-/
import proofs.«147373_j19146964205949_2_alg».proof.Proof.Gen.KernelIdeal.Frame
import proofs.«147373_j19146964205949_2_alg».proof.Proof.BlockValue
import proofs.«147373_j19146964205949_2_alg».proof.Proof.HostSides
import proofs.«147373_j19146964205949_2_alg».proof.Proof.RegionBlocks
import proofs.«147373_j19146964205949_2_alg».proof.Proof.RegionReads
import Idealize.ShloMosaic.Lib.Pipeline.Value
import Idealize.ShloMosaic.Lib.Tactic

noncomputable section

namespace Cert.KernelIdeal.RegionValue

open Idealize.ShloMosaic Idealize.ShloMosaic.TcCoe Idealize.SL.Sem Idealize.ShloMosaic.ValueIdx
open Idealize.ShloMosaic.Pipeline (Dat)
open Cert.KernelIdeal Cert.KernelIdeal.Gen Cert.GatedLinear Cert.KernelIdeal.BlockValue Cert.KernelIdeal.HostSides
open Cert.KernelIdeal.RegionBlocks Cert.KernelIdeal.RegionReads

variable (m : (ℓ : Loc nD τ sig) → Buf (Elt Ideal) ℓ) (ρ : Dev nD → PrngReg)

/-- The dense stage of the arrays the region finds: what the result array ends holding. -/
def stage (c : Dev nD) : S100000x128.Idx → EReal :=
  gatedLinear (V m c main_v12 : S100000x128.Idx → Elt Ideal .f32) (V m c main_arg0 : S100000x128.Idx → Elt Ideal .f32)
    (m ((c.tc : Thread nD τ).loc main_arg5) : S128x256.Idx → Elt Ideal .f32) (m ((c.tc : Thread nD τ).loc main_arg6) : S128.Idx → Elt Ideal .f32)

/-- The block the body stores at point t is block t of the dense stage: read off an arbitrary family `f` of buffer
    contents whose transposed-weight and bias-row arrays are W and b read back. -/
theorem block_stage (c : Dev nD) (f : (b : Ref sig .tc) → Buf (Elt Ideal) ((c : Thread nD τ).loc b))
    (W : S128x256.Idx → EReal) (b : S128.Idx → EReal)
    (hW : ∀ (k : Fin 256) (q : Fin 128), (f main_v14 : S256x128.Idx → Elt Ideal .bf16) (ix2 k q) = W (ix2 q k))
    (hb : ∀ q : Fin 128, (f main_v15 : S1x128.Idx → Elt Ideal .f32) (ix2 (0 : Fin 1) q) = b (ix1 q))
    (t : Fin cfg0.N) :
    (cfg0.win 4).cut (grid0.coords t)
        (k0_pay1 (F := Ideal) (((cfg0.win 0).blk t).view.read (Elt Ideal) (f (Pipeline.arrRef spec0 0)))
          (((cfg0.win 1).blk t).view.read (Elt Ideal) (f (Pipeline.arrRef spec0 1)))
          (((cfg0.win 2).blk t).view.read (Elt Ideal) (f (Pipeline.arrRef spec0 2)))
          (((cfg0.win 3).blk t).view.read (Elt Ideal) (f (Pipeline.arrRef spec0 3))))
      = ((cfg0.win 4).blk t).view.read (Elt Ideal)
          (gatedLinear (n := 100000) (f main_v12 : S100000x128.Idx → Elt Ideal .f32) (f main_arg0 : S100000x128.Idx → Elt Ideal .f32) W b) := by
  obtain ⟨-, -, -, -, -, -, -, -, e0, e1⟩ := idx_facts t
  funext y
  rw [View.read_apply]
  have hx0 : (((cfg0.win 4).xinj (grid0.coords t) y : S5000x128.Idx) 0).val = (y 0).val := rfl
  have hx1 : (((cfg0.win 4).xinj (grid0.coords t) y : S5000x128.Idx) 1).val = (y 1).val := rfl
  have hr : ((((cfg0.win 4).blk t).view.emb y : S100000x128.Idx) 0).val
      = 5000 * t.val + (((cfg0.win 4).xinj (grid0.coords t) y : S5000x128.Idx) 0).val := by
    rw [hx0]
    show win0_4.index t (0 : Fin 2) * 5000 + 1 * (y 0).val = _
    rw [e0]; omega
  have hc : ((((cfg0.win 4).blk t).view.emb y : S100000x128.Idx) 1).val
      = (((cfg0.win 4).xinj (grid0.coords t) y : S5000x128.Idx) 1).val := by
    rw [hx1]
    show win0_4.index t (1 : Fin 2) * 128 + 1 * (y 1).val = _
    rw [e1]; omega
  exact pay_eq_gatedLinear (((cfg0.win 0).blk t).view.read (Elt Ideal) (f (Pipeline.arrRef spec0 0)))
    (((cfg0.win 1).blk t).view.read (Elt Ideal) (f (Pipeline.arrRef spec0 1)))
    (((cfg0.win 2).blk t).view.read (Elt Ideal) (f (Pipeline.arrRef spec0 2)))
    (((cfg0.win 3).blk t).view.read (Elt Ideal) (f (Pipeline.arrRef spec0 3)))
    (f main_v12 : S100000x128.Idx → Elt Ideal .f32) (f main_arg0 : S100000x128.Idx → Elt Ideal .f32) W b
    ((cfg0.win 4).xinj (grid0.coords t) y) (((cfg0.win 4).blk t).view.emb y)
    (fun j => nodeRows c f t _ _ hr rfl) (fun j => userRows c f t _ _ hr rfl)
    (fun k q => (weightRows c f t _).trans (hW k q)) (fun q => (biasRows c f t _).trans (hb q)) hc

/-- What point t writes back is block t of the stage. -/
theorem flushed_eq (c : Dev nD) (t : Fin cfg0.N) :
    (dats m 0 c).flushed 4 t = ((cfg0.win 4).blk t).view.read (Elt Ideal) (stage m c) := by
  show (cfg0.win 4).cut (grid0.coords t) ((dats m 0 c).after 4 t) = _
  rw [after0_4, out_eq]
  unfold stage iblk
  exact block_stage c (V m c) _ _ (weight_apply m c) (bias_apply m c) t

/-- An index of the result array is in point t's block iff its row is one of the block's 5000 rows. -/
theorem mem_blk (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v16).slice (win0_4.rect t)).set ↔ _
  rw [View.set_slice_whole, Rect.mem_set_unit]
  exact Iff.rfl

/-- The 20 blocks tile the result array: row r is in the block of point r / 5000. -/
theorem cover (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_4 _, ?_⟩
  rw [mem_blk]
  obtain ⟨-, -, -, -, -, -, -, -, e0, e1⟩ := idx_facts ⟨(i 0).val / 5000, by rw [hN]; omega⟩
  intro a
  match a with
  | ⟨0, _⟩ =>
    show win0_4.index _ (0 : Fin 2) * 5000 ≤ (i 0).val ∧ (i 0).val < win0_4.index _ (0 : Fin 2) * 5000 + 5000
    rw [e0]; show (i 0).val / 5000 * 5000 ≤ (i 0).val ∧ (i 0).val < (i 0).val / 5000 * 5000 + 5000; omega
  | ⟨1, _⟩ =>
    show win0_4.index _ (1 : Fin 2) * 128 ≤ (i 1).val ∧ (i 1).val < win0_4.index _ (1 : Fin 2) * 128 + 128
    rw [e1]; omega

/-- After the last grid point the result array is the stage of the arrays the region found. -/
theorem final (c : Dev nD) : (dats m 0 c).arrAt 4 cfg0.N = stage m c :=
  (dats m 0 c).arrAt_eq_of_cover 4 (stage m c) (fun t _ => flushed_eq m c t) cover

end Cert.KernelIdeal.RegionValue

end
-- ==== Proof.Message.lean ====
/-
  The message array as a function of the seven arguments: the dense stage of the node messages  H · item_emb,
  the user embeddings, the weight and the bias.  Both programs' second result is this array, and their first
  result is this array sent back along the edges.
-/
import proofs.«147373_j19146964205949_2_alg».proof.Proof.HostSides
import proofs.«147373_j19146964205949_2_alg».proof.Proof.GatedLinear

noncomputable section

namespace Cert.KernelIdeal.Message

open Idealize.ShloMosaic Cert.KernelIdeal Cert.GatedLinear Cert.KernelIdeal.HostSides

/-- msg = [node | node ⊙ user_emb] · Wᵀ + b  with  node = H · item_emb. -/
def msgFn (x0 : (⟨S100000x128, .f32⟩ : BufTy).Contents (Elt Ideal)) (x1 : (⟨S50000x128, .f32⟩ : BufTy).Contents (Elt Ideal))
    (x2 x3 : (⟨S1600000, .i32⟩ : BufTy).Contents (Elt Ideal)) (x4 : (⟨S1600000, .f32⟩ : BufTy).Contents (Elt Ideal))
    (x5 : (⟨S128x256, .f32⟩ : BufTy).Contents (Elt Ideal)) (x6 : (⟨S128, .f32⟩ : BufTy).Contents (Elt Ideal)) :
    (⟨S100000x128, .f32⟩ : BufTy).Contents (Elt Ideal) :=
  gatedLinear (n := 100000) (nodeMsg (F := Ideal) x1 x2 x3 x4) x0 x5 x6

/-- back = Hᵀ · msg. -/
def backFn (x0 : (⟨S100000x128, .f32⟩ : BufTy).Contents (Elt Ideal)) (x1 : (⟨S50000x128, .f32⟩ : BufTy).Contents (Elt Ideal))
    (x2 x3 : (⟨S1600000, .i32⟩ : BufTy).Contents (Elt Ideal)) (x4 : (⟨S1600000, .f32⟩ : BufTy).Contents (Elt Ideal))
    (x5 : (⟨S128x256, .f32⟩ : BufTy).Contents (Elt Ideal)) (x6 : (⟨S128, .f32⟩ : BufTy).Contents (Elt Ideal)) :
    (⟨S50000x128, .f32⟩ : BufTy).Contents (Elt Ideal) :=
  edgeSumBack (F := Ideal) (msgFn x0 x1 x2 x3 x4 x5 x6) x2 x3 x4

end Cert.KernelIdeal.Message

end
-- ==== Proof.KernelRun.lean ====
/-
  The kernel program's run, read: its two results as functions of the arguments.

  The region's result array ends at the dense stage of the node messages H · item_emb, the user embeddings, the
  weight and the bias (`msgOf`); the host operations after the region send it back along the edges, so the first
  result is Hᵀ · msg (`Cert.KernelIdeal.HostSides.edgeSumBack` of it); the seven arguments end as they started.
-/
import proofs.«147373_j19146964205949_2_alg».proof.Proof.RegionValue
import proofs.«147373_j19146964205949_2_alg».proof.Proof.Message

noncomputable section

namespace Cert.KernelIdeal.Run

open Idealize.ShloMosaic Idealize.ShloMosaic.TcCoe Idealize.SL.Sem
open Idealize.ShloMosaic.Pipeline (Dat)
open Cert.KernelIdeal Cert.KernelIdeal.Gen Cert.GatedLinear Cert.KernelIdeal.HostSides Cert.KernelIdeal.RegionValue Cert.KernelIdeal.Message

variable (m : (ℓ : Loc nD τ sig) → Buf (Elt Ideal) ℓ) (ρ : Dev nD → PrngReg)

/-- The message array of the arguments on core c. -/
def msgOf (c : Dev nD) : S100000x128.Idx → EReal :=
  msgFn (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6))

/-- The first result of the arguments on core c. -/
def backOf (c : Dev nD) : S50000x128.Idx → EReal :=
  backFn (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6))

/-- The stage of the arrays the region finds is the stage of the arguments' node messages. -/
theorem stage_eq (c : Dev nD) : stage m c = msgOf m c := by
  unfold stage msgOf msgFn
  rw [V_nodeMsg m c, V_main_arg0 m c]

/-- The region's result array after the run. -/
theorem result_msg (c : Dev nD) : (dats m 0 c).arrAt 4 cfg0.N = msgOf m c :=
  (final m c).trans (stage_eq m c)

/-- The first result after the run: the message array sent back along the edges. -/
theorem result_back (c : Dev nD) :
    Pipeline.afterTail₀ cfgs (dats m) 0 (V0 m) [hostOps1] c main_v29 = backOf m c := by
  rw [tail_eq m c, result_msg m c]
  unfold backOf backFn msgOf
  rfl

/-- Every weakly fair execution of the kernel's program terminates with its two results at these functions of the
    arguments and the arguments unchanged. -/
theorem run : θ_run defs (onTc (τ := τ) (main (F := Ideal))) ⟨m, fun _ => 0, ρ⟩ fun r => ∀ c : Dev nD,
      r.2.mem ((c.tc : Thread nD τ).loc main_v29) = backOf m c
      ∧ r.2.mem ((c.tc : Thread nD τ).loc main_v16) = msgOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v29 (Pipeline.mem_restRefs_of main_v29 (by decide) (by decide))).trans (result_back m c),
      ((h c).1 4).trans (result_msg m c),
      ((h c).1 1).trans (((dats m 0 c).arrAt_in 1 rfl _).trans ((A_eq m c 1).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Run

end
-- ==== Proof.ReferenceStage.lean ====
/-
  The reference's second result is the dense stage of its own node messages.

  The reference joins the node messages x (its segment sum, carried as a whole) with x ⊙ user_emb along the columns,
  multiplies by the transposed weight with one `dot_general` and adds the bias broadcast down the rows.  Read at
  entry (r, q): the product is the sum over the 256 joined columns k of the join's entry (r, k) times the weight's
  entry (q, k) — the transpose read back —, and the broadcast bias is the bias at q: the stage of
  `Cert.GatedLinear.gatedLinear`.
-/
import proofs.«147373_j19146964205949_2_alg».proof.Proof.Gen.ReferenceIdeal.Read
import proofs.«147373_j19146964205949_2_alg».proof.Proof.GatedLinear

noncomputable section

open scoped BigOperators

namespace Cert.ReferenceIdeal.Stage

open Idealize.ShloMosaic Idealize.ShloMosaic.ValueIdx Cert.ReferenceIdeal Cert.ReferenceIdeal.Gen Cert.ReferenceIdeal.Read Cert.GatedLinear

/-- The reference's message array is the stage of its node messages, the user embeddings, the weight and the bias. -/
theorem msg_eq (x0 : (⟨S100000x128, .f32⟩ : BufTy).Contents (Elt Ideal)) (x1 : (⟨S50000x128, .f32⟩ : BufTy).Contents (Elt Ideal))
    (x2 x3 : (⟨S1600000, .i32⟩ : BufTy).Contents (Elt Ideal)) (x4 : (⟨S1600000, .f32⟩ : BufTy).Contents (Elt Ideal))
    (x5 : (⟨S128x256, .f32⟩ : BufTy).Contents (Elt Ideal)) (x6 : (⟨S128, .f32⟩ : BufTy).Contents (Elt Ideal)) :
    val_main_v19 (F := Ideal) x0 x1 x2 x3 x4 x5 x6
      = gatedLinear (n := 100000) (val_main_v12 (F := Ideal) x1 x2 x3 x4) x0 x5 x6 := by
  funext i
  obtain ⟨r, q, rfl⟩ : ∃ (r : Fin 100000) (q : Fin 128), i = ix2 r q := ⟨i 0, i 1, eq_ix2 i⟩
  rw [val_main_v19_apply, val_main_v16_apply, val_main_v18_apply, val_main_v17_apply, gatedLinear_apply]
  refine congrArg₂ (· + ·) (Finset.sum_congr rfl fun k _ => ?_) ?_
  · rw [val_main_v15_apply]
    have el : lidx_main_v16 (ix2 r q) k = ix2 r k := funext fun a => Fin.ext (by
      match a with
      | ⟨0, _⟩ => rfl
      | ⟨1, _⟩ => rfl)
    have er : idx_main_v15 (ridx_main_v16 (ix2 r q) k) = ix2 q k := funext fun a => Fin.ext (by
      match a with
      | ⟨0, _⟩ => rfl
      | ⟨1, _⟩ => rfl)
    rw [el, er]
    refine congrArg (· * x5 (ix2 q k)) ?_
    unfold val_main_v14 val_main_v13
    generalize val_main_v12 (F := Ideal) x1 x2 x3 x4 = X
    exact concatenate_joined (n := 100000) X x0 (mulf X x0 : FVec Ideal S100000x128 .f32)
      (fun i => mulf_apply (s := S100000x128) (φ := .f32) X x0 i) concatenates_S100000x128_S100000x128_S100000x256_d1 r k
  · exact congrArg x6 (funext fun a => Fin.ext (by
      match a with
      | ⟨0, _⟩ => rfl))

end Cert.ReferenceIdeal.Stage

end
-- ==== Proof.Bridge.lean ====
/-
  The two programs' host sides are the same functions.

  Before and after the dense stage both programs compute with the same operations on the same arrays: the node
  messages  H · item_emb  (gather at the edges' columns, scale by the edges' values, sum into the edges' rows) and the
  return  Hᵀ · msg  (gather at the edges' rows, scale, sum into the edges' columns).  So the reference's node messages
  are the kernel program's, and its first result is the kernel program's return applied to its own message array;
  together with the message arrays being one dense stage this makes the two programs' results equal.  The gather
  and the scatter-add stay closed: the two sides are compared as they are written, operation by operation.
-/
import proofs.«147373_j19146964205949_2_alg».proof.Proof.HostSides
import proofs.«147373_j19146964205949_2_alg».proof.Proof.ReferenceStage
import proofs.«147373_j19146964205949_2_alg».proof.Proof.Message

noncomputable section

namespace Cert.Bridge

open Idealize.ShloMosaic Cert.GatedLinear

/-- The reference's node messages are the kernel program's: one scatter-add of one gather. -/
theorem nodeMsg_eq (x1 : (⟨Cert.KernelIdeal.S50000x128, .f32⟩ : BufTy).Contents (Elt Ideal))
    (x2 x3 : (⟨Cert.KernelIdeal.S1600000, .i32⟩ : BufTy).Contents (Elt Ideal))
    (x4 : (⟨Cert.KernelIdeal.S1600000, .f32⟩ : BufTy).Contents (Elt Ideal)) :
    Cert.ReferenceIdeal.Read.val_main_v12 (F := Ideal) x1 x2 x3 x4 = Cert.KernelIdeal.HostSides.nodeMsg (F := Ideal) x1 x2 x3 x4 := by
  unfold Cert.ReferenceIdeal.Read.val_main_v12 Cert.ReferenceIdeal.Read.val_main_v11 Cert.ReferenceIdeal.Read.val_main_v10
    Cert.ReferenceIdeal.Read.val_main_cst Cert.ReferenceIdeal.Read.val_main_v9 Cert.ReferenceIdeal.Read.val_main_v8
    Cert.ReferenceIdeal.Read.val_main_v7 Cert.ReferenceIdeal.Read.val_main_v6 Cert.ReferenceIdeal.Read.val_main_v5
    Cert.ReferenceIdeal.Read.val_main_v4 Cert.ReferenceIdeal.Read.val_main_v3 Cert.ReferenceIdeal.Read.val_main_c_0
    Cert.ReferenceIdeal.Read.val_main_v2 Cert.ReferenceIdeal.Read.val_main_v1 Cert.ReferenceIdeal.Read.val_main_c
    Cert.ReferenceIdeal.Read.val_main_v0 Cert.KernelIdeal.HostSides.nodeMsg
  rfl

/-- The reference's first result is the kernel program's return of the reference's own message array. -/
theorem back_eq (x0 : (⟨Cert.KernelIdeal.S100000x128, .f32⟩ : BufTy).Contents (Elt Ideal))
    (x1 : (⟨Cert.KernelIdeal.S50000x128, .f32⟩ : BufTy).Contents (Elt Ideal))
    (x2 x3 : (⟨Cert.KernelIdeal.S1600000, .i32⟩ : BufTy).Contents (Elt Ideal))
    (x4 : (⟨Cert.KernelIdeal.S1600000, .f32⟩ : BufTy).Contents (Elt Ideal))
    (x5 : (⟨Cert.KernelIdeal.S128x256, .f32⟩ : BufTy).Contents (Elt Ideal))
    (x6 : (⟨Cert.KernelIdeal.S128, .f32⟩ : BufTy).Contents (Elt Ideal)) :
    Cert.ReferenceIdeal.Read.val_main_v32 (F := Ideal) x0 x1 x2 x3 x4 x5 x6
      = Cert.KernelIdeal.HostSides.edgeSumBack (F := Ideal) (Cert.ReferenceIdeal.Read.val_main_v19 (F := Ideal) x0 x1 x2 x3 x4 x5 x6) x2 x3 x4 := by
  unfold Cert.ReferenceIdeal.Read.val_main_v32 Cert.ReferenceIdeal.Read.val_main_v31 Cert.ReferenceIdeal.Read.val_main_v30
    Cert.ReferenceIdeal.Read.val_main_cst_3 Cert.ReferenceIdeal.Read.val_main_v29 Cert.ReferenceIdeal.Read.val_main_v28
    Cert.ReferenceIdeal.Read.val_main_v27 Cert.ReferenceIdeal.Read.val_main_v26 Cert.ReferenceIdeal.Read.val_main_v25
    Cert.ReferenceIdeal.Read.val_main_v24 Cert.ReferenceIdeal.Read.val_main_v23 Cert.ReferenceIdeal.Read.val_main_c_2
    Cert.ReferenceIdeal.Read.val_main_v22 Cert.ReferenceIdeal.Read.val_main_v21 Cert.ReferenceIdeal.Read.val_main_c_1
    Cert.ReferenceIdeal.Read.val_main_v20 Cert.KernelIdeal.HostSides.edgeSumBack
  generalize Cert.ReferenceIdeal.Read.val_main_v19 (F := Ideal) x0 x1 x2 x3 x4 x5 x6 = msg
  rfl

/-- The reference's two results, as the kernel program's functions of the arguments. -/
theorem reference_results (x0 : (⟨Cert.KernelIdeal.S100000x128, .f32⟩ : BufTy).Contents (Elt Ideal))
    (x1 : (⟨Cert.KernelIdeal.S50000x128, .f32⟩ : BufTy).Contents (Elt Ideal))
    (x2 x3 : (⟨Cert.KernelIdeal.S1600000, .i32⟩ : BufTy).Contents (Elt Ideal))
    (x4 : (⟨Cert.KernelIdeal.S1600000, .f32⟩ : BufTy).Contents (Elt Ideal))
    (x5 : (⟨Cert.KernelIdeal.S128x256, .f32⟩ : BufTy).Contents (Elt Ideal))
    (x6 : (⟨Cert.KernelIdeal.S128, .f32⟩ : BufTy).Contents (Elt Ideal)) :
    Cert.ReferenceIdeal.Read.val_main_v19 (F := Ideal) x0 x1 x2 x3 x4 x5 x6 = Cert.KernelIdeal.Message.msgFn x0 x1 x2 x3 x4 x5 x6
    ∧ Cert.ReferenceIdeal.Read.val_main_v32 (F := Ideal) x0 x1 x2 x3 x4 x5 x6 = Cert.KernelIdeal.Message.backFn x0 x1 x2 x3 x4 x5 x6 := by
  have h19 : Cert.ReferenceIdeal.Read.val_main_v19 (F := Ideal) x0 x1 x2 x3 x4 x5 x6 = Cert.KernelIdeal.Message.msgFn x0 x1 x2 x3 x4 x5 x6 := by
    unfold Cert.KernelIdeal.Message.msgFn
    rw [← nodeMsg_eq]
    exact Cert.ReferenceIdeal.Stage.msg_eq x0 x1 x2 x3 x4 x5 x6
  refine ⟨h19, ?_⟩
  unfold Cert.KernelIdeal.Message.backFn
  rw [back_eq, h19]

end Cert.Bridge

end
-- ==== Proof.lean ====
/-
  The certificate of one hypergraph message-passing layer: a Pallas kernel for the dense stage, with jax's gather
  and segment sum around it, against the plain jnp reference.

  Both programs compute, from user_emb (100000 × 128), item_emb (50000 × 128), the 1.6 million edges (rows, cols,
  vals), the weight W (128 × 256) and the bias b (128):
      node = H · item_emb                 (rows of item_emb gathered at cols, scaled by vals, summed into rows)
      msg  = [node | node ⊙ user_emb] · Wᵀ + b
      back = Hᵀ · msg                     (rows of msg gathered at rows, scaled by vals, summed into cols)
  and return (back, msg).  The kernel program runs the middle line as one pallas_call over 20 blocks of 5000 rows,
  with the joined array and the transposed weight rounded to bf16 — the identity on the extended reals — and the
  product accumulated into a zero block; the reference uses one `dot_general` over all rows.  On the extended reals
  both are, at entry (r, q), the sum over the 256 joined columns plus the bias (`Cert.GatedLinear.gatedLinear`):
  only the order of the blocks differs, and a row's entry reads that row alone, so the two message arrays are equal
  without any use of finiteness.  The first and third lines are the same operations in both programs and are
  carried as whole functions (`Cert.Bridge`).

  The frames of the two kernel programs are the generated ones; the reference's frame is its generated run with the
  results dropped; the ideal pass rewrote nothing, so `preserves` is trivial.
-/
import proofs.«147373_j19146964205949_2_alg».proof.Defs
import proofs.«147373_j19146964205949_2_alg».proof.Proof.Gen.Kernel
import proofs.«147373_j19146964205949_2_alg».proof.Proof.Gen.Kernel.Skeleton
import proofs.«147373_j19146964205949_2_alg».proof.Proof.Gen.Kernel.Launch
import proofs.«147373_j19146964205949_2_alg».proof.Proof.Gen.Kernel.Points
import proofs.«147373_j19146964205949_2_alg».proof.Proof.Gen.Kernel.Frame
import proofs.«147373_j19146964205949_2_alg».proof.Proof.Gen.KernelIdeal
import proofs.«147373_j19146964205949_2_alg».proof.Proof.Gen.KernelIdeal.Skeleton
import proofs.«147373_j19146964205949_2_alg».proof.Proof.Gen.KernelIdeal.Launch
import proofs.«147373_j19146964205949_2_alg».proof.Proof.Gen.KernelIdeal.Points
import proofs.«147373_j19146964205949_2_alg».proof.Proof.Gen.KernelIdeal.Frame
import proofs.«147373_j19146964205949_2_alg».proof.Proof.Gen.ReferenceIdeal
import proofs.«147373_j19146964205949_2_alg».proof.Proof.Gen.ReferenceIdeal.Run
import proofs.«147373_j19146964205949_2_alg».proof.Proof.Gen.ReferenceIdeal.Read
import proofs.«147373_j19146964205949_2_alg».proof.Proof.Gen.Pre_finite_inputs
import proofs.«147373_j19146964205949_2_alg».proof.Proof.KernelRun
import proofs.«147373_j19146964205949_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- From memories agreeing on the arguments both idealized programs end with the message array at the dense stage of
    the node messages and the first result at that array sent back along the edges. -/
theorem algebraic : Cert.algebraic_KernelIdeal_ReferenceIdeal := by
  intro m ρ m' ρ' _ hagree
  refine ⟨_, _, Cert.KernelIdeal.Run.run m ρ, ?_⟩
  refine (θ_run Cert.ReferenceIdeal.defs _ _).mono (fun _ h c => ?_) (Cert.ReferenceIdeal.Value.run (F := Ideal) m' ρ')
  obtain ⟨h32, h19, hargs⟩ := h c
  obtain ⟨g0, g1, g2, g3, g4, g5, g6⟩ := hagree c
  obtain ⟨e19, e32⟩ := Cert.Bridge.reference_results
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
  refine ⟨h32.trans ?_, h19.trans ?_, hargs⟩
  · rw [Cert.ReferenceIdeal.Read.val_main_v32_eq, g0, g1, g2, g3, g4, g5, g6]
    exact e32
  · rw [Cert.ReferenceIdeal.Read.val_main_v19_eq, g0, g1, g2, g3, g4, g5, g6]
    exact e19

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
